-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x4096 .f32) (main_arg5 : FVec F S4096x256 .f32) (main_arg6 : FVec F S4096 .f32) (main_arg7 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_v33

def fn {F : FTy → Type} [FloatOps F] (main_arg0 : FVec F S4096x256 .f32) (main_arg1 : FVec F S4096x4096 .f32) (main_arg2 : FVec F S4096x4096 .f32) (main_arg3 : FVec F S4096x4096 .f32) (main_arg4 : FVec F S4096x4096 .f32) (main_arg5 : FVec F S4096x256 .f32) (main_arg6 : FVec F S4096 .f32) (main_arg7 : FVec F S4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_v13 main_v16
-- ==== Kernel.lean ====
abbrev S4096x256 : Shape := ⟨2, ![4096, 256]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S1x512 : Shape := ⟨2, ![1, 512]⟩
abbrev S512x512 : Shape := ⟨2, ![512, 512]⟩
abbrev S512x256 : Shape := ⟨2, ![512, 256]⟩
abbrev S256x512 : Shape := ⟨2, ![256, 512]⟩

abbrev nBuf : Space → Nat
  | .hbm => 40
  | .vmem => 24
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x256, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S1x4096, .f32⟩
  | .hbm, ⟨34, _⟩ => ⟨S4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .local _ .vmem, ⟨0, _⟩ => ⟨S4096x256, .f32⟩
  | .local _ .vmem, ⟨1, _⟩ => ⟨S4096x256, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg1 : BitVec 32 := BitVec.ofNat 32 (i 1).val
  let c512_i32_0 : BitVec 32 := 512#32
  let v2 : BitVec 32 := Scalar.muli arg1 c512_i32_0
  v2
def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let v4 : Index := Scalar.indexCast v1
  let c0 : Index := 0#32
  ![v4.toNat, 0]
def k0_off2 (i : grid0.Coords) : Fin 2 → Nat :=
  let arg1 : BitVec 32 := BitVec.ofNat 32 (i 1).val
  let c512_i32_0 : BitVec 32 := 512#32
  let v2 : BitVec 32 := Scalar.muli arg1 c512_i32_0
  let v3 : BitVec 32 := v2
  let v6 : Index := Scalar.indexCast v3
  let c0_1 : Index := 0#32
  ![v6.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bcast_S_S4096 : S_.BroadcastsInDim S4096 (![] : Fin 0 → Fin S4096.rank)
  shapeCasts_S4096_S1x4096 : S4096.ShapeCasts S1x4096
  h_S512x256 : 0 < S512x256.numel
  bitsLt_bf16_f32 : FTy.bits .bf16 < FTy.bits .f32
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  broadcasts_S1x512_S512x512 : S1x512.Broadcasts S512x512
  natLt_1_32 : 1 < 32
  dot_S512x256_S256x512_S512x512_1_0_0_1_n_n_wf : DotDims.WF S512x256 S256x512 S512x512 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ a, (k0_off1 i) a + S512x256.size a ≤ S4096x256.size a
  k0_off2_inb : ∀ i : grid0.Coords, ∀ a, (k0_off2 i) a + S512x256.size a ≤ S4096x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .f32 = 32 ∨ (Rect.block (s := S4096x256) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .f32 = 32 ∨ (Rect.block (s := S4096x4096) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S4096x4096.size a
  hwx0_7 : ∀ i : grid0.Coords, EltTy.bits .f32 = 32 ∨ (Rect.block (s := S4096x4096) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S4096x4096.size a
  hwx0_8 : ∀ i : grid0.Coords, EltTy.bits .f32 = 32 ∨ (Rect.block (s := S4096x4096) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x4096.size a
  hwx0_9 : ∀ i : grid0.Coords, EltTy.bits .f32 = 32 ∨ (Rect.block (s := S4096x4096) S512x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S4096x4096.size a
  hwx0_10 : ∀ i : grid0.Coords, EltTy.bits .f32 = 32 ∨ (Rect.block (s := S4096x4096) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S4096x4096.size a
  hwx0_11 : ∀ i : grid0.Coords, EltTy.bits .f32 = 32 ∨ (Rect.block (s := S4096x4096) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S4096x4096.size a
  hwx0_12 : ∀ i : grid0.Coords, EltTy.bits .f32 = 32 ∨ (Rect.block (s := S4096x4096) S512x512.size (cc0_transform_12 i) (hinb0_12 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S512x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_0) S512x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v22_1) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22_2) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22_3) S512x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S4096 : Shape := ⟨1, ![4096]⟩
abbrev S256x4096 : Shape := ⟨2, ![256, 4096]⟩
abbrev S_ : Shape := ⟨0, ![]⟩
abbrev S1x4096 : Shape := ⟨2, ![1, 4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x256, .f32⟩
  | .hbm, ⟨6, _⟩ => ⟨S4096, .f32⟩
  | .hbm, ⟨7, _⟩ => ⟨S4096, .f32⟩
  | .hbm, ⟨8, _⟩ => ⟨S256x4096, .f32⟩
  | .hbm, ⟨9, _⟩ => ⟨S4096x4096, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S1x4096, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S_, .f32⟩
  | .hbm, ⟨72, _⟩ => ⟨S4096x4096, .f32⟩
  | .hbm, ⟨73, _⟩ => ⟨S4096x4096, .i1⟩
  | .hbm, ⟨74, _⟩ => ⟨S4096x4096, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]

class Facts₀ : Prop where
  transposes_S4096x256_S256x4096_1_0 : S4096x256.Transposes [1, 0] S256x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.Cell.lean ====
/-
  One step of a damped, rotating oscillator cell with an adaptive threshold, written entry by entry on the
  extended reals.

  For one neuron of one batch row, with decay rate `p` (already net of the offset), rotation `(c, s)` =
  (cos, sin) of the angular step, state `(u, v)`, threshold trace `q`, previous spike `z` and input
  current `d`:

      damp   = exp ((p - q - q) · dt)
      u'     = damp · (u·c - v·s) + d·dt
      v'     = damp · (u·s + v·c)
      q'     = 0.9·q + z
      z'     = 1 if u' - 1 - q' > 0 else 0

  The float words `dt`, `0.9`, `1`, `0` are kept as their binary32 patterns: both programs spell the same
  words, so they are never evaluated.  Only `2.0` is evaluated, for the one law that is not syntactic:
  subtracting `2·q` is subtracting `q` twice, on EVERY extended real (no finiteness is needed: if `q` is
  infinite both sides are the same infinity, or both `⊥` when `a = ⊥`).
-/
import Idealize.ShloMosaic.PureOps.Ideal
import Idealize.ShloMosaic.PureOps.Ideal.Laws

noncomputable section

namespace Cert.Cell

open Idealize.ShloMosaic

/-- The step `dt` (the binary32 word nearest 0.01). -/
abbrev dt : EReal := Ideal.ofBits .f32 0x3C23D70A#32
/-- The threshold trace's decay (the binary32 word nearest 0.9). -/
abbrev decay : EReal := Ideal.ofBits .f32 0x3F666666#32
/-- The firing threshold `1.0`. -/
abbrev theta : EReal := Ideal.ofBits .f32 0x3F800000#32
/-- `+0.0`. -/
abbrev zero : EReal := Ideal.ofBits .f32 0x00000000#32
/-- `2.0`. -/
abbrev two : EReal := Ideal.ofBits .f32 0x40000000#32

/-- The damping factor over one step: the trace `q` is subtracted twice from the decay rate. -/
def damp (p q : EReal) : EReal := Ideal.exp ((p - q - q) * dt)

/-- The first state component after the step: damped rotation plus the input current over `dt`. -/
def uNext (p c s u v q d : EReal) : EReal := damp p q * (u * c - v * s) + d * dt

/-- The second state component after the step: damped rotation. -/
def vNext (p c s u v q : EReal) : EReal := damp p q * (u * s + v * c)

/-- The threshold trace after the step. -/
def qNext (q z : EReal) : EReal := decay * q + z

/-- The spike after the step, as a one-bit word: set iff `u' - 1 - q' > 0`. -/
def fires (p c s u v q d z : EReal) : BitVec 1 :=
  Ideal.cmp .ogt (uNext p c s u v q d - theta - qNext q z) zero

/-- The spike after the step as a number: `0` or `1`. -/
def zNext (p c s u v q d z : EReal) : EReal := (((fires p c s u v q d z).toNat : ℝ) : EReal)

/-- The word `2.0` denotes the real `2`. -/
theorem two_eq : two = ((2 : ℝ) : EReal) := by
  simp [Ideal.ofBits, Ideal.ieee, -EReal.coe_mul]; norm_num

/-- Doubling is adding to itself, also at the infinities. -/
theorem two_mul_eq (q : EReal) : ((2 : ℝ) : EReal) * q = q + q := by
  induction q using EReal.rec with
  | bot => rw [EReal.coe_mul_bot_of_pos (by norm_num), EReal.bot_add]
  | coe r => rw [← EReal.coe_mul, ← EReal.coe_add, two_mul]
  | top => rw [EReal.coe_mul_top_of_pos (by norm_num), EReal.top_add_top]

/-- Subtracting `2·q` is subtracting `q` twice, for all extended reals `a`, `q`: `-(q + q) = -q - q` holds
    because `q + q` is never the indeterminate sum `⊤ + ⊥`; the rest is associativity of `+`. -/
theorem sub_two_mul (a q : EReal) : a - two * q = a - q - q := by
  have h1 : q ≠ ⊥ ∨ q ≠ ⊤ := by
    by_cases h : q = ⊥
    · right; rw [h]; exact bot_ne_top
    · left; exact h
  rw [two_eq, two_mul_eq, sub_eq_add_neg, EReal.neg_add h1 h1.symm, sub_eq_add_neg, sub_eq_add_neg,
    sub_eq_add_neg, add_assoc]

/-- A one-bit word widened (zero-extended) to 32 bits and read as a SIGNED integer is the bit read as a
    natural number: the two spellings of "the comparison's bit as a float" agree. -/
theorem toInt_setWidth_one (b : BitVec 1) : (((b.setWidth 32).toInt : ℝ) : EReal) = ((b.toNat : ℝ) : EReal) := by
  have h : ∀ b : BitVec 1, (b.setWidth 32).toInt = (b.toNat : ℤ) := by decide
  rw [h b]; norm_cast

end Cert.Cell

end
-- ==== Proof.Body.lean ====
/-
  What one grid point's body leaves in each of the four output blocks, as a value.

  The body of the kernel loads, at grid point `i = (i₀, i₁)`: rows `512·i₀ … 512·i₀+511` of the whole `x` buffer
  and rows `512·i₁ … 512·i₁+511` of the whole `W` buffer (the two sliced loads), the three 1×512 parameter rows
  (cos, sin, net decay rate) and the four 512×512 state blocks `z, u, v, q`; it then stores one 512×512 block
  into each output buffer, covering it.  So each output block ends holding its one store's value: that value,
  as a pure function of the loaded values, is the statement here — for any interpretation of the floats.
  (Each output buffer is also loaded just before it is stored; the loaded value is not used.)
-/
import proofs.«180163_j2499670966836_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a load or store of a whole buffer. -/
theorem zeros : (![0, 0] : Fin 2 → Nat) = fun _ => 0 := funext fun a => by fin_cases a <;> rfl

/-- Rows `512·i₀ … 512·i₀ + 511` (all 256 columns) of a [4096, 256] buffer: the slice of `x` the body loads. -/
def rowsOfX (i : grid0.Coords) (x : Vec F S4096x256 .f32) : Vec F S512x256 .f32 :=
  View.ld x (Rect.unit (s := S4096x256) (k0_off1 i) S512x256.size (k0_off1_inb i))

/-- Rows `512·i₁ … 512·i₁ + 511` (all 256 columns) of a [4096, 256] buffer: the slice of `W` the body loads. -/
def rowsOfW (i : grid0.Coords) (w : Vec F S4096x256 .f32) : Vec F S512x256 .f32 :=
  View.ld w (Rect.unit (s := S4096x256) (k0_off2 i) S512x256.size (k0_off2_inb i))

/-- The input current block: the matrix product of the `x` slice with the transposed `W` slice. -/
abbrev current (i : grid0.Coords) (x0 x1 : Vec F S4096x256 .f32) : FVec F S512x512 .f32 :=
  k0_pay5 (rowsOfX i x0) (rowsOfW i x1)

/-- The new threshold trace block: `0.9·q + z` of the loaded `q` and `z` blocks. -/
theorem left12 (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole)
    (x0 : Vec F S4096x256 .f32) (x1 : Vec F S4096x256 .f32) (x2 : Vec F S1x512 .f32) (x3 : Vec F S1x512 .f32) (x4 : Vec F S1x512 .f32) (x5 : Vec F S512x512 .f32) (x6 : Vec F S512x512 .f32) (x7 : Vec F S512x512 .f32) (x8 : Vec F S512x512 .f32) :
    out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = k0_pay3 x8 x5 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero zeros]
  simp only [View.readAt_eq_ld, harg2.read_unread, harg3.read_unread, harg4.read_unread, harg5.read_unread, harg6.read_unread, harg7.read_unread, harg8.read_unread, harg9.read_unread, harg10.read_unread, View.ld_unit_zero (S := S512x512) zeros, View.ld_unit_zero (S := S1x512) zeros]

/-- The new second state block: the damping factor times `u·sin + v·cos`. -/
theorem left11 (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole)
    (x0 : Vec F S4096x256 .f32) (x1 : Vec F S4096x256 .f32) (x2 : Vec F S1x512 .f32) (x3 : Vec F S1x512 .f32) (x4 : Vec F S1x512 .f32) (x5 : Vec F S512x512 .f32) (x6 : Vec F S512x512 .f32) (x7 : Vec F S512x512 .f32) (x8 : Vec F S512x512 .f32) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = k0_pay2 (k0_pay6 x2) (k0_pay7 x3) x6 x7 (k0_pay8 x4 x8) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero zeros]
  simp only [View.readAt_eq_ld, harg2.read_unread, harg3.read_unread, harg4.read_unread, harg5.read_unread, harg6.read_unread, harg7.read_unread, harg8.read_unread, harg9.read_unread, harg10.read_unread, View.ld_unit_zero (S := S512x512) zeros, View.ld_unit_zero (S := S1x512) zeros]

/-- The new first state block: the damped rotation `damp·(u·cos − v·sin)` plus the input current times `dt`. -/
theorem left10 (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole)
    (x0 : Vec F S4096x256 .f32) (x1 : Vec F S4096x256 .f32) (x2 : Vec F S1x512 .f32) (x3 : Vec F S1x512 .f32) (x4 : Vec F S1x512 .f32) (x5 : Vec F S512x512 .f32) (x6 : Vec F S512x512 .f32) (x7 : Vec F S512x512 .f32) (x8 : Vec F S512x512 .f32) :
    out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = k0_pay1 (current i x0 x1) (k0_pay9 x2 x3 x4 x8 x6 x7) (k0_pay10 (F := F)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero zeros]
  simp only [View.readAt_eq_ld, harg2.read_unread, harg3.read_unread, harg4.read_unread, harg5.read_unread, harg6.read_unread, harg7.read_unread, harg8.read_unread, harg9.read_unread, harg10.read_unread, View.ld_unit_zero (S := S512x512) zeros, View.ld_unit_zero (S := S1x512) zeros]
  rfl

/-- The new spike block: the comparison `u' − 1 − q' > 0` of the two blocks above, as a float. -/
theorem left9 (c : Dev nD) (i : grid0.Coords) (arg2 : Memref sig .tc .vmem S4096x256 .f32) (harg2 : arg2.IsWhole) (arg3 : Memref sig .tc .vmem S4096x256 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S512x512 .f32) (harg12 : arg12.IsWhole) (arg13 : Memref sig .tc .vmem S512x512 .f32) (harg13 : arg13.IsWhole) (arg14 : Memref sig .tc .vmem S512x512 .f32) (harg14 : arg14.IsWhole)
    (x0 : Vec F S4096x256 .f32) (x1 : Vec F S4096x256 .f32) (x2 : Vec F S1x512 .f32) (x3 : Vec F S1x512 .f32) (x4 : Vec F S1x512 .f32) (x5 : Vec F S512x512 .f32) (x6 : Vec F S512x512 .f32) (x7 : Vec F S512x512 .f32) (x8 : Vec F S512x512 .f32) :
    out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 = k0_pay4 (current i x0 x1) x8 x5 (k0_pay9 x2 x3 x4 x8 x6 x7) (k0_pay10 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  sl_unfold_words
  rw [View.canon_unit_zero zeros]
  simp only [View.readAt_eq_ld, harg2.read_unread, harg3.read_unread, harg4.read_unread, harg5.read_unread, harg6.read_unread, harg7.read_unread, harg8.read_unread, harg9.read_unread, harg10.read_unread, View.ld_unit_zero (S := S512x512) zeros, View.ld_unit_zero (S := S1x512) zeros]
  rfl

end Cert.KernelIdeal.Body

end
-- ==== Proof.BodyAt.lean ====
/-
  The body's four stored blocks read at one entry `(r, c)`, on the extended reals.

  With the loaded values as variables — the two 512×256 slices `a` (of `x`) and `b` (of `W`), the 1×512 rows
  `cR, sR, pR` (cos, sin, net decay rate) and the 512×512 blocks `z, u, v, q` — entry `(r, c)` of each stored
  block is one application of the scalar step of `Cert.Cell` to: the rows at column `c`, the blocks at `(r, c)`
  and the input current `∑ₖ a(r,k)·b(c,k)`.  The product of `a` with the TRANSPOSE of `b`, accumulated into
  zero, is that sum (a change of float format is the identity here); a 1×512 row broadcast down 512 rows reads
  the row at the column; and the kernel's `p − 2·q` is the step's `p − q − q` (`Cert.Cell.sub_two_mul`).
-/
import proofs.«180163_j2499670966836_2_alg».proof.Proof.Cell
import proofs.«180163_j2499670966836_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.BodyAt

open Cert.KernelIdeal Cert.KernelIdeal.Gen Cert.Cell

/-- The matrix product's dimension record: contract axis 1 of the left operand with axis 0 of the right. -/
abbrev dims : DotDims S512x256 S256x512 S512x512 := dot_S512x256_S256x512_S512x512_1_0_0_1_n_n

theorem lhs_row (i : S512x512.Idx) (q : dims.contr.Idx) : (dims.lhsIdx i q 0).val = (i 0).val := by
  unfold DotDims.lhsIdx
  rw [dif_neg (show ¬(0 : Fin S512x256.rank) ∈ dims.lhsBatch by decide), dif_pos (show (0 : Fin S512x256.rank) ∈ dims.lhsNonContracting by decide)]
  rfl
theorem lhs_col (i : S512x512.Idx) (q : dims.contr.Idx) : (dims.lhsIdx i q 1).val = (q ⟨0, by decide⟩).val :=
  dims.lhsIdx_val_of_single rfl i q
theorem rhs_row (i : S512x512.Idx) (q : dims.contr.Idx) : (dims.rhsIdx i q 0).val = (q ⟨0, by decide⟩).val :=
  dims.rhsIdx_val_of_single rfl i q
theorem rhs_col (i : S512x512.Idx) (q : dims.contr.Idx) : (dims.rhsIdx i q 1).val = (i 1).val := by
  unfold DotDims.rhsIdx
  rw [dif_neg (show ¬(1 : Fin S256x512.rank) ∈ dims.rhsBatch by decide), dif_pos (show (1 : Fin S256x512.rank) ∈ dims.rhsNonContracting by decide)]
  rfl

/-- The input current at `(r, c)`: row `r` of the `x` slice against row `c` of the `W` slice. -/
theorem current_apply (a b : Vec Ideal S512x256 .f32) (r c : Fin 512) :
    k0_pay5 (F := Ideal) a b (ix2 r c) = ∑ k : Fin 256, a (ix2 r k) * b (ix2 c k) := by
  unfold k0_pay5
  simp only [matmul]
  refine (Ideal.matmul_constant_zero_apply dims none _ _ (ix2 r c)).trans ?_
  rw [← Equiv.sum_comp (ValueIdx.contrEquiv1 dims 256 rfl rfl).symm]
  refine Finset.sum_congr rfl fun k _ => ?_
  have hk := ValueIdx.contrEquiv1_symm_val dims 256 rfl rfl k
  have el : dims.lhsIdx (ix2 r c) ((ValueIdx.contrEquiv1 dims 256 rfl rfl).symm k) = (ix2 r k : S512x256.Idx) := funext fun ax => Fin.ext (by
    match ax with
    | ⟨0, _⟩ => exact lhs_row _ _
    | ⟨1, _⟩ => exact (lhs_col _ _).trans hk)
  have er : dims.rhsIdx (ix2 r c) ((ValueIdx.contrEquiv1 dims 256 rfl rfl).symm k) = (ix2 k c : S256x512.Idx) := funext fun ax => Fin.ext (by
    match ax with
    | ⟨0, _⟩ => exact (rhs_row _ _).trans hk
    | ⟨1, _⟩ => exact rhs_col _ _)
  rw [el, er, transpose_ix2_apply]
  rfl

/-- The new threshold trace at an entry. -/
theorem trace_apply (q z : Vec Ideal S512x512 .f32) (j : S512x512.Idx) :
    k0_pay3 (F := Ideal) q z j = qNext (q j) (z j) := rfl

/-- The damping block at `(r, c)`: the decay-rate row at column `c`, less twice the trace, times `dt`, exponentiated. -/
theorem damp_apply (pR : Vec Ideal S1x512 .f32) (q : Vec Ideal S512x512 .f32) (r c : Fin 512) :
    k0_pay8 (F := Ideal) pR q (ix2 r c) = damp (pR (ix2 (0 : Fin 1) c)) (q (ix2 r c)) := by
  show Ideal.exp ((broadcastTo S512x512 (shapeCast S1x512 pR shapeCasts_S1x512_S1x512) broadcasts_S1x512_S512x512 (ix2 r c)
    - two * q (ix2 r c)) * dt) = _
  rw [broadcastTo_1b_ab_apply, shapeCast_self, sub_two_mul]
  rfl

/-- The new second state component at `(r, c)`. -/
theorem second_apply (cR sR pR : Vec Ideal S1x512 .f32) (u v q : Vec Ideal S512x512 .f32) (r c : Fin 512) :
    k0_pay2 (F := Ideal) (k0_pay6 cR) (k0_pay7 sR) u v (k0_pay8 pR q) (ix2 r c)
      = vNext (pR (ix2 (0 : Fin 1) c)) (cR (ix2 (0 : Fin 1) c)) (sR (ix2 (0 : Fin 1) c)) (u (ix2 r c)) (v (ix2 r c)) (q (ix2 r c)) := by
  show k0_pay8 (F := Ideal) pR q (ix2 r c)
    * (u (ix2 r c) * broadcastTo S512x512 (shapeCast S1x512 sR shapeCasts_S1x512_S1x512) broadcasts_S1x512_S512x512 (ix2 r c)
      + v (ix2 r c) * broadcastTo S512x512 (shapeCast S1x512 cR shapeCasts_S1x512_S1x512) broadcasts_S1x512_S512x512 (ix2 r c)) = _
  rw [broadcastTo_1b_ab_apply, broadcastTo_1b_ab_apply, shapeCast_self, shapeCast_self, damp_apply]
  rfl

/-- The damped rotation of the first component at `(r, c)` (before the input current is added). -/
theorem rotated_apply (cR sR pR : Vec Ideal S1x512 .f32) (u v q : Vec Ideal S512x512 .f32) (r c : Fin 512) :
    k0_pay9 (F := Ideal) cR sR pR q u v (ix2 r c)
      = damp (pR (ix2 (0 : Fin 1) c)) (q (ix2 r c))
        * (u (ix2 r c) * cR (ix2 (0 : Fin 1) c) - v (ix2 r c) * sR (ix2 (0 : Fin 1) c)) := by
  show k0_pay8 (F := Ideal) pR q (ix2 r c)
    * (u (ix2 r c) * broadcastTo S512x512 (shapeCast S1x512 cR shapeCasts_S1x512_S1x512) broadcasts_S1x512_S512x512 (ix2 r c)
      - v (ix2 r c) * broadcastTo S512x512 (shapeCast S1x512 sR shapeCasts_S1x512_S1x512) broadcasts_S1x512_S512x512 (ix2 r c)) = _
  rw [broadcastTo_1b_ab_apply, broadcastTo_1b_ab_apply, shapeCast_self, shapeCast_self, damp_apply]

/-- The new first state component at `(r, c)`, for any input-current block `d`. -/
theorem first_apply (d : FVec Ideal S512x512 .f32) (cR sR pR : Vec Ideal S1x512 .f32) (u v q : Vec Ideal S512x512 .f32) (r c : Fin 512) :
    k0_pay1 (F := Ideal) d (k0_pay9 cR sR pR q u v) (k0_pay10 (F := Ideal)) (ix2 r c)
      = uNext (pR (ix2 (0 : Fin 1) c)) (cR (ix2 (0 : Fin 1) c)) (sR (ix2 (0 : Fin 1) c)) (u (ix2 r c)) (v (ix2 r c)) (q (ix2 r c)) (d (ix2 r c)) := by
  show k0_pay9 (F := Ideal) cR sR pR q u v (ix2 r c) + d (ix2 r c) * dt = _
  rw [rotated_apply]
  rfl

/-- The new spike at `(r, c)`: the comparison's bit, widened and converted, is `0` or `1`. -/
theorem spike_apply (d : FVec Ideal S512x512 .f32) (cR sR pR : Vec Ideal S1x512 .f32) (z u v q : Vec Ideal S512x512 .f32) (r c : Fin 512) :
    k0_pay4 (F := Ideal) d q z (k0_pay9 cR sR pR q u v) (k0_pay10 (F := Ideal)) (ix2 r c)
      = zNext (pR (ix2 (0 : Fin 1) c)) (cR (ix2 (0 : Fin 1) c)) (sR (ix2 (0 : Fin 1) c)) (u (ix2 r c)) (v (ix2 r c)) (q (ix2 r c)) (d (ix2 r c)) (z (ix2 r c)) := by
  show ((((Ideal.cmp .ogt (k0_pay1 (F := Ideal) d (k0_pay9 cR sR pR q u v) (k0_pay10 (F := Ideal)) (ix2 r c) - theta
      - k0_pay3 (F := Ideal) q z (ix2 r c)) zero).setWidth 32).toInt : ℝ) : EReal) = _
  rw [toInt_setWidth_one, first_apply, trace_apply]
  rfl

end Cert.KernelIdeal.BodyAt

end
-- ==== Proof.Blocks.lean ====
/-
  The input blocks of one grid point, read at an entry, are the arrays the kernel is launched on (after the host
  operations that come before it) read at the corresponding global index.

  At grid point `t` with block indices `(a₀, a₁)` (the output windows' index map; both run over 0…7) and an
  entry `(r, c)` of a 512×512 block, write `I = (512·a₀ + r, 512·a₁ + c)` for the global index.  Then
    • the blocks of `z, u, v, q` at `(r, c)` are those arrays at `I`;
    • the 1×512 blocks of the three parameter rows at `(0, c)` are the 1×4096 rows at `(0, I₁)`;
    • `x` and `W` are staged whole, and the body's own slices of them start at rows `512·a₀` and `512·a₁`: row `r`
      of the `x` slice is row `I₀` of `x`, row `c` of the `W` slice is row `I₁` of `W`.
  All of it is the arithmetic "block index × block size + coordinate inside the block", with the relations between
  the thirteen index maps (and the two slice offsets) decided once over the 64 grid points.
-/
import proofs.«180163_j2499670966836_2_alg».proof.Proof.Body
import proofs.«180163_j2499670966836_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.Blocks

open Cert.KernelIdeal Cert.KernelIdeal.Gen

/-- The relations between the index maps, decided over the grid: `x` and `W` sit at block (0, 0); the parameter
    rows at (0, a₁); the state blocks and every output at (a₀, a₁); the body's slices of `x` and `W` start at
    rows 512·a₀ and 512·a₁; and a₀, a₁ ≤ 7. -/
theorem grid_facts : ∀ t : Fin cfg0.N,
    win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = win0_9.index t (1 : Fin 2)
    ∧ win0_3.index t (0 : Fin 2) = 0
    ∧ win0_3.index t (1 : Fin 2) = win0_9.index t (1 : Fin 2)
    ∧ win0_4.index t (0 : Fin 2) = 0
    ∧ win0_4.index t (1 : Fin 2) = win0_9.index t (1 : Fin 2)
    ∧ win0_5.index t (0 : Fin 2) = win0_9.index t (0 : Fin 2)
    ∧ win0_5.index t (1 : Fin 2) = win0_9.index t (1 : Fin 2)
    ∧ win0_6.index t (0 : Fin 2) = win0_9.index t (0 : Fin 2)
    ∧ win0_6.index t (1 : Fin 2) = win0_9.index t (1 : Fin 2)
    ∧ win0_7.index t (0 : Fin 2) = win0_9.index t (0 : Fin 2)
    ∧ win0_7.index t (1 : Fin 2) = win0_9.index t (1 : Fin 2)
    ∧ win0_8.index t (0 : Fin 2) = win0_9.index t (0 : Fin 2)
    ∧ win0_8.index t (1 : Fin 2) = win0_9.index t (1 : Fin 2)
    ∧ win0_10.index t (0 : Fin 2) = win0_9.index t (0 : Fin 2)
    ∧ win0_10.index t (1 : Fin 2) = win0_9.index t (1 : Fin 2)
    ∧ win0_11.index t (0 : Fin 2) = win0_9.index t (0 : Fin 2)
    ∧ win0_11.index t (1 : Fin 2) = win0_9.index t (1 : Fin 2)
    ∧ win0_12.index t (0 : Fin 2) = win0_9.index t (0 : Fin 2)
    ∧ win0_12.index t (1 : Fin 2) = win0_9.index t (1 : Fin 2)
    ∧ k0_off1 (grid0.coords t) (0 : Fin 2) = win0_9.index t (0 : Fin 2) * 512
    ∧ k0_off1 (grid0.coords t) (1 : Fin 2) = 0
    ∧ k0_off2 (grid0.coords t) (0 : Fin 2) = win0_9.index t (1 : Fin 2) * 512
    ∧ k0_off2 (grid0.coords t) (1 : Fin 2) = 0
    ∧ win0_9.index t (0 : Fin 2) ≤ 7
    ∧ win0_9.index t (1 : Fin 2) ≤ 7 :=
  (by decide +kernel : ∀ t : Fin grid0.N, _)

/-- Every pair of block indices is some grid point's. -/
theorem grid_onto : ∀ (q0 q1 : Fin 8), ∃ t : Fin cfg0.N, win0_9.index t = ![q0.val, q1.val] :=
  (by decide +kernel : ∀ (q0 q1 : Fin 8), ∃ t : Fin grid0.N, win0_9.index t = ![q0.val, q1.val])

/-- Column `I₁` of a 1×4096 row, for a global index `I`. -/
abbrev rowEntry (I : S4096x4096.Idx) : S1x4096.Idx := ix2 (0 : Fin 1) (⟨(I 1).val, (I 1).isLt⟩ : Fin 4096)
/-- Entry `(I₀, k)` of `x`. -/
abbrev xEntry (I : S4096x4096.Idx) (k : Fin 256) : S4096x256.Idx := ix2 (⟨(I 0).val, (I 0).isLt⟩ : Fin 4096) k
/-- Entry `(I₁, k)` of `W`. -/
abbrev wEntry (I : S4096x4096.Idx) (k : Fin 256) : S4096x256.Idx := ix2 (⟨(I 1).val, (I 1).isLt⟩ : Fin 4096) k

variable (m : (ℓ : Loc nD τ sig) → Buf (Elt Ideal) ℓ) (c : Dev nD) (t : Fin cfg0.N) (r cc : Fin 512) (I : S4096x4096.Idx)
  (h0 : (I 0).val = win0_9.index t (0 : Fin 2) * 512 + r.val) (h1 : (I 1).val = win0_9.index t (1 : Fin 2) * 512 + cc.val)

include h0 h1

/-- The `z` block at `(r, c)` is `z` at `I`. -/
theorem read_z : iblk m c 5 t (ix2 r cc) = V m c main_arg1 I := by
  obtain ⟨e0, e1, e2, e3, e4, e5, e6, e7, e8, e9, e10, e11, e12, e13, e14, e15, e16, e17, e18, e19, e20, e21, e22, e23, e24, e25, e26, e27, e28, e29⟩ := grid_facts t
  show V m c main_arg1 (((cfg0.win 5).blk t).view.emb (ix2 r cc)) = V m c main_arg1 I
  refine congrArg (V m c main_arg1) (funext fun a => Fin.ext ?_)
  match a with
  | ⟨0, _⟩ => show win0_5.index t (0 : Fin 2) * 512 + 1 * r.val = (I 0).val; omega
  | ⟨1, _⟩ => show win0_5.index t (1 : Fin 2) * 512 + 1 * cc.val = (I 1).val; omega

/-- The `u` block at `(r, c)` is `u` at `I`. -/
theorem read_u : iblk m c 6 t (ix2 r cc) = V m c main_arg2 I := by
  obtain ⟨e0, e1, e2, e3, e4, e5, e6, e7, e8, e9, e10, e11, e12, e13, e14, e15, e16, e17, e18, e19, e20, e21, e22, e23, e24, e25, e26, e27, e28, e29⟩ := grid_facts t
  show V m c main_arg2 (((cfg0.win 6).blk t).view.emb (ix2 r cc)) = V m c main_arg2 I
  refine congrArg (V m c main_arg2) (funext fun a => Fin.ext ?_)
  match a with
  | ⟨0, _⟩ => show win0_6.index t (0 : Fin 2) * 512 + 1 * r.val = (I 0).val; omega
  | ⟨1, _⟩ => show win0_6.index t (1 : Fin 2) * 512 + 1 * cc.val = (I 1).val; omega

/-- The `v` block at `(r, c)` is `v` at `I`. -/
theorem read_v : iblk m c 7 t (ix2 r cc) = V m c main_arg3 I := by
  obtain ⟨e0, e1, e2, e3, e4, e5, e6, e7, e8, e9, e10, e11, e12, e13, e14, e15, e16, e17, e18, e19, e20, e21, e22, e23, e24, e25, e26, e27, e28, e29⟩ := grid_facts t
  show V m c main_arg3 (((cfg0.win 7).blk t).view.emb (ix2 r cc)) = V m c main_arg3 I
  refine congrArg (V m c main_arg3) (funext fun a => Fin.ext ?_)
  match a with
  | ⟨0, _⟩ => show win0_7.index t (0 : Fin 2) * 512 + 1 * r.val = (I 0).val; omega
  | ⟨1, _⟩ => show win0_7.index t (1 : Fin 2) * 512 + 1 * cc.val = (I 1).val; omega

/-- The `q` block at `(r, c)` is `q` at `I`. -/
theorem read_q : iblk m c 8 t (ix2 r cc) = V m c main_arg4 I := by
  obtain ⟨e0, e1, e2, e3, e4, e5, e6, e7, e8, e9, e10, e11, e12, e13, e14, e15, e16, e17, e18, e19, e20, e21, e22, e23, e24, e25, e26, e27, e28, e29⟩ := grid_facts t
  show V m c main_arg4 (((cfg0.win 8).blk t).view.emb (ix2 r cc)) = V m c main_arg4 I
  refine congrArg (V m c main_arg4) (funext fun a => Fin.ext ?_)
  match a with
  | ⟨0, _⟩ => show win0_8.index t (0 : Fin 2) * 512 + 1 * r.val = (I 0).val; omega
  | ⟨1, _⟩ => show win0_8.index t (1 : Fin 2) * 512 + 1 * cc.val = (I 1).val; omega

omit h0 in
/-- The cosine row's block at `(0, c)` is the row at column `I₁`. -/
theorem read_cos : iblk m c 2 t (ix2 (0 : Fin 1) cc) = V m c main_v15 (rowEntry I) := by
  obtain ⟨e0, e1, e2, e3, e4, e5, e6, e7, e8, e9, e10, e11, e12, e13, e14, e15, e16, e17, e18, e19, e20, e21, e22, e23, e24, e25, e26, e27, e28, e29⟩ := grid_facts t
  show V m c main_v15 (((cfg0.win 2).blk t).view.emb (ix2 (0 : Fin 1) cc)) = V m c main_v15 (rowEntry I)
  refine congrArg (V m c main_v15) (funext fun a => Fin.ext ?_)
  match a with
  | ⟨0, _⟩ => show win0_2.index t (0 : Fin 2) * 1 + 1 * 0 = 0; omega
  | ⟨1, _⟩ => show win0_2.index t (1 : Fin 2) * 512 + 1 * cc.val = (I 1).val; omega

omit h0 in
/-- The sine row's block at `(0, c)` is the row at column `I₁`. -/
theorem read_sin : iblk m c 3 t (ix2 (0 : Fin 1) cc) = V m c main_v19 (rowEntry I) := by
  obtain ⟨e0, e1, e2, e3, e4, e5, e6, e7, e8, e9, e10, e11, e12, e13, e14, e15, e16, e17, e18, e19, e20, e21, e22, e23, e24, e25, e26, e27, e28, e29⟩ := grid_facts t
  show V m c main_v19 (((cfg0.win 3).blk t).view.emb (ix2 (0 : Fin 1) cc)) = V m c main_v19 (rowEntry I)
  refine congrArg (V m c main_v19) (funext fun a => Fin.ext ?_)
  match a with
  | ⟨0, _⟩ => show win0_3.index t (0 : Fin 2) * 1 + 1 * 0 = 0; omega
  | ⟨1, _⟩ => show win0_3.index t (1 : Fin 2) * 512 + 1 * cc.val = (I 1).val; omega

omit h0 in
/-- The net decay-rate row's block at `(0, c)` is the row at column `I₁`. -/
theorem read_rate : iblk m c 4 t (ix2 (0 : Fin 1) cc) = V m c main_v21 (rowEntry I) := by
  obtain ⟨e0, e1, e2, e3, e4, e5, e6, e7, e8, e9, e10, e11, e12, e13, e14, e15, e16, e17, e18, e19, e20, e21, e22, e23, e24, e25, e26, e27, e28, e29⟩ := grid_facts t
  show V m c main_v21 (((cfg0.win 4).blk t).view.emb (ix2 (0 : Fin 1) cc)) = V m c main_v21 (rowEntry I)
  refine congrArg (V m c main_v21) (funext fun a => Fin.ext ?_)
  match a with
  | ⟨0, _⟩ => show win0_4.index t (0 : Fin 2) * 1 + 1 * 0 = 0; omega
  | ⟨1, _⟩ => show win0_4.index t (1 : Fin 2) * 512 + 1 * cc.val = (I 1).val; omega

omit h1 in
/-- Row `r` of the body's slice of `x` is row `I₀` of `x`. -/
theorem read_x (k : Fin 256) : Body.rowsOfX (grid0.coords t) (iblk m c 0 t) (ix2 r k) = V m c main_arg0 (xEntry I k) := by
  obtain ⟨e0, e1, e2, e3, e4, e5, e6, e7, e8, e9, e10, e11, e12, e13, e14, e15, e16, e17, e18, e19, e20, e21, e22, e23, e24, e25, e26, e27, e28, e29⟩ := grid_facts t
  show V m c main_arg0 (((cfg0.win 0).blk t).view.emb
    ((Rect.unit (s := S4096x256) (k0_off1 (grid0.coords t)) S512x256.size (k0_off1_inb (grid0.coords t))).emb (ix2 r k))) = _
  refine congrArg (V m c main_arg0) (funext fun a => Fin.ext ?_)
  match a with
  | ⟨0, _⟩ => show win0_0.index t (0 : Fin 2) * 4096 + 1 * (k0_off1 (grid0.coords t) (0 : Fin 2) + 1 * r.val) = (I 0).val; omega
  | ⟨1, _⟩ => show win0_0.index t (1 : Fin 2) * 256 + 1 * (k0_off1 (grid0.coords t) (1 : Fin 2) + 1 * k.val) = k.val; omega

omit h0 in
/-- Row `c` of the body's slice of `W` is row `I₁` of `W`. -/
theorem read_w (k : Fin 256) : Body.rowsOfW (grid0.coords t) (iblk m c 1 t) (ix2 cc k) = V m c main_arg5 (wEntry I k) := by
  obtain ⟨e0, e1, e2, e3, e4, e5, e6, e7, e8, e9, e10, e11, e12, e13, e14, e15, e16, e17, e18, e19, e20, e21, e22, e23, e24, e25, e26, e27, e28, e29⟩ := grid_facts t
  show V m c main_arg5 (((cfg0.win 1).blk t).view.emb
    ((Rect.unit (s := S4096x256) (k0_off2 (grid0.coords t)) S512x256.size (k0_off2_inb (grid0.coords t))).emb (ix2 cc k))) = _
  refine congrArg (V m c main_arg5) (funext fun a => Fin.ext ?_)
  match a with
  | ⟨0, _⟩ => show win0_1.index t (0 : Fin 2) * 4096 + 1 * (k0_off2 (grid0.coords t) (0 : Fin 2) + 1 * cc.val) = (I 1).val; omega
  | ⟨1, _⟩ => show win0_1.index t (1 : Fin 2) * 256 + 1 * (k0_off2 (grid0.coords t) (1 : Fin 2) + 1 * k.val) = k.val; omega

end Cert.KernelIdeal.Blocks

end
-- ==== Proof.Whole.lean ====
/-
  The kernel's four result arrays after the run, each as ONE function of the arrays the kernel is launched on.

  For a global index `I = (R, C)` of a [4096, 4096] result:
      input current   d(I) = ∑ₖ x(R, k) · W(C, k)
      spike           = zNext (p C) (cos C) (sin C) (u I) (v I) (q I) (d I) (z I)
      first state     = uNext (p C) (cos C) (sin C) (u I) (v I) (q I) (d I)
      second state    = vNext (p C) (cos C) (sin C) (u I) (v I) (q I)
      threshold trace = qNext (q I) (z I)
  with `p, cos, sin` the three 1×4096 parameter rows and the scalar step that of `Cert.Cell`.

  Each of the 8×8 grid points writes back one 512×512 block of each result; that block is the restriction of the
  function above to rows 512·a₀ … and columns 512·a₁ … (the body's values at an entry, with each loaded block read
  at the global index); the 64 blocks cover the array (the point for `(R, C)` is the one with block indices
  `(R / 512, C / 512)`); so the array ends at that function.  The generated run of the kernel names the arrays after
  the run; this module says what they are.
-/
import proofs.«180163_j2499670966836_2_alg».proof.Proof.Cell
import proofs.«180163_j2499670966836_2_alg».proof.Proof.Body
import proofs.«180163_j2499670966836_2_alg».proof.Proof.BodyAt
import proofs.«180163_j2499670966836_2_alg».proof.Proof.Blocks
import proofs.«180163_j2499670966836_2_alg».proof.Proof.Gen.KernelIdeal.Value
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Cell Cert.KernelIdeal.Blocks

/-- The input current at a global index: row `I₀` of `x` against row `I₁` of `W`. -/
def currentAt (x W : S4096x256.Idx → EReal) (I : S4096x4096.Idx) : EReal :=
  ∑ k : Fin 256, x (xEntry I k) * W (wEntry I k)

/-- The new spikes, as a whole array. -/
def spikes (x W : S4096x256.Idx → EReal) (pR cR sR : S1x4096.Idx → EReal) (z u v q : S4096x4096.Idx → EReal) :
    S4096x4096.Idx → EReal := fun I =>
  zNext (pR (rowEntry I)) (cR (rowEntry I)) (sR (rowEntry I)) (u I) (v I) (q I) (currentAt x W I) (z I)

/-- The new first state component, as a whole array. -/
def firstNext (x W : S4096x256.Idx → EReal) (pR cR sR : S1x4096.Idx → EReal) (u v q : S4096x4096.Idx → EReal) :
    S4096x4096.Idx → EReal := fun I =>
  uNext (pR (rowEntry I)) (cR (rowEntry I)) (sR (rowEntry I)) (u I) (v I) (q I) (currentAt x W I)

/-- The new second state component, as a whole array. -/
def secondNext (pR cR sR : S1x4096.Idx → EReal) (u v q : S4096x4096.Idx → EReal) : S4096x4096.Idx → EReal := fun I =>
  vNext (pR (rowEntry I)) (cR (rowEntry I)) (sR (rowEntry I)) (u I) (v I) (q I)

/-- The new threshold trace, as a whole array. -/
def traceNext (z q : S4096x4096.Idx → EReal) : S4096x4096.Idx → EReal := fun I => qNext (q I) (z I)

variable (m : (ℓ : Loc nD τ sig) → Buf (Elt Ideal) ℓ) (ρ : Dev nD → PrngReg)

/-- The block's input current at `(r, c)` is the input current at the global index. -/
theorem current_read (c : Dev nD) (t : Fin cfg0.N) (r cc : Fin 512) (I : S4096x4096.Idx)
    (h0 : (I 0).val = win0_9.index t (0 : Fin 2) * 512 + r.val) (h1 : (I 1).val = win0_9.index t (1 : Fin 2) * 512 + cc.val) :
    Body.current (grid0.coords t) (iblk m c 0 t) (iblk m c 1 t) (ix2 r cc) = currentAt (V m c main_arg0) (V m c main_arg5) I := by
  refine (BodyAt.current_apply (Body.rowsOfX (grid0.coords t) (iblk m c 0 t)) (Body.rowsOfW (grid0.coords t) (iblk m c 1 t)) r cc).trans ?_
  exact Finset.sum_congr rfl fun k _ => by rw [read_x m c t r I h0 k, read_w m c t cc I h1 k]

/-! ## Output window 12: the new threshold trace -/

/-- What grid point `t` writes back to this output is block `t` of the whole-array function: entry `(r, c)` of the
    stored block is the scalar step at the loaded values there, and each loaded value is its array at the global
    index `(512·a₀ + r, 512·a₁ + c)`, which is where the block's entry `(r, c)` sits in the array. -/
theorem flushed12_eq (c : Dev nD) (t : Fin cfg0.N) :
    (dats m 0 c).flushed 12 t = ((cfg0.win 12).blk t).view.read (Elt Ideal) (traceNext (V m c main_arg1) (V m c main_arg4)) := by
  refine (Value.flushed12_A m c t).trans ?_
  refine (congrArg ((cfg0.win 12).cut (grid0.coords t)) (Body.left12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))).trans ?_
  funext j
  obtain ⟨r, cc, rfl⟩ : ∃ (r cc : Fin 512), j = ix2 r cc := ⟨j 0, j 1, eq_ix2 j⟩
  obtain ⟨e0, e1, e2, e3, e4, e5, e6, e7, e8, e9, e10, e11, e12, e13, e14, e15, e16, e17, e18, e19, e20, e21, e22, e23, e24, e25, e26, e27, e28, e29⟩ := grid_facts t
  have h0 : ((((cfg0.win 12).blk t).view.emb (ix2 r cc)) 0).val = win0_9.index t (0 : Fin 2) * 512 + r.val := by
    show win0_12.index t (0 : Fin 2) * 512 + 1 * r.val = _; omega
  have h1 : ((((cfg0.win 12).blk t).view.emb (ix2 r cc)) 1).val = win0_9.index t (1 : Fin 2) * 512 + cc.val := by
    show win0_12.index t (1 : Fin 2) * 512 + 1 * cc.val = _; omega
  refine ((BodyAt.trace_apply (iblk m c 8 t) (iblk m c 5 t) (ix2 r cc))).trans ?_
  rw [read_q m c t r cc _ h0 h1, read_z m c t r cc _ h0 h1]
  rfl

/-- An index of the array is in point `t`'s block iff each coordinate is in the block's range on its axis. -/
theorem mem_blk12 (t : Fin cfg0.N) (i : S4096x4096.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v22_3).slice (win0_12.rect t)).set ↔ _
  rw [View.set_slice_whole, Rect.mem_set_unit]
  exact Iff.rfl

/-- Every index `(R, C)` of the array is in the block of the grid point with block indices `(R / 512, C / 512)`. -/
theorem cover12 (i : S4096x4096.Idx) : ∃ t : Fin cfg0.N, (cfg0.win 12).flush t = true ∧ i ∈ ((cfg0.win 12).blk t).view.set := by
  have hi0 : (i 0).val < 4096 := (i 0).isLt
  have hi1 : (i 1).val < 4096 := (i 1).isLt
  obtain ⟨t, ht⟩ := grid_onto ⟨(i 0).val / 512, by omega⟩ ⟨(i 1).val / 512, by omega⟩
  have q0 : win0_9.index t (0 : Fin 2) = (i 0).val / 512 := congrFun ht 0
  have q1 : win0_9.index t (1 : Fin 2) = (i 1).val / 512 := congrFun ht 1
  obtain ⟨e0, e1, e2, e3, e4, e5, e6, e7, e8, e9, e10, e11, e12, e13, e14, e15, e16, e17, e18, e19, e20, e21, e22, e23, e24, e25, e26, e27, e28, e29⟩ := grid_facts t
  refine ⟨t, flush0_12 t, ?_⟩
  rw [mem_blk12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 512 ≤ (i 1).val ∧ (i 1).val < win0_12.index t (1 : Fin 2) * 512 + 512; omega

/-- So after the run the array is the whole-array function. -/
theorem final12 (c : Dev nD) : (dats m 0 c).arrAt 12 cfg0.N = traceNext (V m c main_arg1) (V m c main_arg4) :=
  (dats m 0 c).arrAt_eq_of_cover 12 _ (fun t _ => flushed12_eq m c t) cover12

/-! ## Output window 11: the new second state component -/

/-- What grid point `t` writes back to this output is block `t` of the whole-array function: entry `(r, c)` of the
    stored block is the scalar step at the loaded values there, and each loaded value is its array at the global
    index `(512·a₀ + r, 512·a₁ + c)`, which is where the block's entry `(r, c)` sits in the array. -/
theorem flushed11_eq (c : Dev nD) (t : Fin cfg0.N) :
    (dats m 0 c).flushed 11 t = ((cfg0.win 11).blk t).view.read (Elt Ideal) (secondNext (V m c main_v21) (V m c main_v15) (V m c main_v19) (V m c main_arg2) (V m c main_arg3) (V m c main_arg4)) := by
  refine (Value.flushed11_A m c t).trans ?_
  refine (congrArg ((cfg0.win 11).cut (grid0.coords t)) (Body.left11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))).trans ?_
  funext j
  obtain ⟨r, cc, rfl⟩ : ∃ (r cc : Fin 512), j = ix2 r cc := ⟨j 0, j 1, eq_ix2 j⟩
  obtain ⟨e0, e1, e2, e3, e4, e5, e6, e7, e8, e9, e10, e11, e12, e13, e14, e15, e16, e17, e18, e19, e20, e21, e22, e23, e24, e25, e26, e27, e28, e29⟩ := grid_facts t
  have h0 : ((((cfg0.win 11).blk t).view.emb (ix2 r cc)) 0).val = win0_9.index t (0 : Fin 2) * 512 + r.val := by
    show win0_11.index t (0 : Fin 2) * 512 + 1 * r.val = _; omega
  have h1 : ((((cfg0.win 11).blk t).view.emb (ix2 r cc)) 1).val = win0_9.index t (1 : Fin 2) * 512 + cc.val := by
    show win0_11.index t (1 : Fin 2) * 512 + 1 * cc.val = _; omega
  refine ((BodyAt.second_apply (iblk m c 2 t) (iblk m c 3 t) (iblk m c 4 t) (iblk m c 6 t) (iblk m c 7 t) (iblk m c 8 t) r cc)).trans ?_
  rw [read_rate m c t cc _ h1, read_cos m c t cc _ h1, read_sin m c t cc _ h1, read_u m c t r cc _ h0 h1, read_v m c t r cc _ h0 h1, read_q m c t r cc _ h0 h1]
  rfl

/-- An index of the array is in point `t`'s block iff each coordinate is in the block's range on its axis. -/
theorem mem_blk11 (t : Fin cfg0.N) (i : S4096x4096.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v22_2).slice (win0_11.rect t)).set ↔ _
  rw [View.set_slice_whole, Rect.mem_set_unit]
  exact Iff.rfl

/-- Every index `(R, C)` of the array is in the block of the grid point with block indices `(R / 512, C / 512)`. -/
theorem cover11 (i : S4096x4096.Idx) : ∃ t : Fin cfg0.N, (cfg0.win 11).flush t = true ∧ i ∈ ((cfg0.win 11).blk t).view.set := by
  have hi0 : (i 0).val < 4096 := (i 0).isLt
  have hi1 : (i 1).val < 4096 := (i 1).isLt
  obtain ⟨t, ht⟩ := grid_onto ⟨(i 0).val / 512, by omega⟩ ⟨(i 1).val / 512, by omega⟩
  have q0 : win0_9.index t (0 : Fin 2) = (i 0).val / 512 := congrFun ht 0
  have q1 : win0_9.index t (1 : Fin 2) = (i 1).val / 512 := congrFun ht 1
  obtain ⟨e0, e1, e2, e3, e4, e5, e6, e7, e8, e9, e10, e11, e12, e13, e14, e15, e16, e17, e18, e19, e20, e21, e22, e23, e24, e25, e26, e27, e28, e29⟩ := grid_facts t
  refine ⟨t, flush0_11 t, ?_⟩
  rw [mem_blk11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 512 ≤ (i 1).val ∧ (i 1).val < win0_11.index t (1 : Fin 2) * 512 + 512; omega

/-- So after the run the array is the whole-array function. -/
theorem final11 (c : Dev nD) : (dats m 0 c).arrAt 11 cfg0.N = secondNext (V m c main_v21) (V m c main_v15) (V m c main_v19) (V m c main_arg2) (V m c main_arg3) (V m c main_arg4) :=
  (dats m 0 c).arrAt_eq_of_cover 11 _ (fun t _ => flushed11_eq m c t) cover11

/-! ## Output window 10: the new first state component -/

/-- What grid point `t` writes back to this output is block `t` of the whole-array function: entry `(r, c)` of the
    stored block is the scalar step at the loaded values there, and each loaded value is its array at the global
    index `(512·a₀ + r, 512·a₁ + c)`, which is where the block's entry `(r, c)` sits in the array. -/
theorem flushed10_eq (c : Dev nD) (t : Fin cfg0.N) :
    (dats m 0 c).flushed 10 t = ((cfg0.win 10).blk t).view.read (Elt Ideal) (firstNext (V m c main_arg0) (V m c main_arg5) (V m c main_v21) (V m c main_v15) (V m c main_v19) (V m c main_arg2) (V m c main_arg3) (V m c main_arg4)) := by
  refine (Value.flushed10_A m c t).trans ?_
  refine (congrArg ((cfg0.win 10).cut (grid0.coords t)) (Body.left10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))).trans ?_
  funext j
  obtain ⟨r, cc, rfl⟩ : ∃ (r cc : Fin 512), j = ix2 r cc := ⟨j 0, j 1, eq_ix2 j⟩
  obtain ⟨e0, e1, e2, e3, e4, e5, e6, e7, e8, e9, e10, e11, e12, e13, e14, e15, e16, e17, e18, e19, e20, e21, e22, e23, e24, e25, e26, e27, e28, e29⟩ := grid_facts t
  have h0 : ((((cfg0.win 10).blk t).view.emb (ix2 r cc)) 0).val = win0_9.index t (0 : Fin 2) * 512 + r.val := by
    show win0_10.index t (0 : Fin 2) * 512 + 1 * r.val = _; omega
  have h1 : ((((cfg0.win 10).blk t).view.emb (ix2 r cc)) 1).val = win0_9.index t (1 : Fin 2) * 512 + cc.val := by
    show win0_10.index t (1 : Fin 2) * 512 + 1 * cc.val = _; omega
  refine ((BodyAt.first_apply (Body.current (grid0.coords t) (iblk m c 0 t) (iblk m c 1 t)) (iblk m c 2 t) (iblk m c 3 t) (iblk m c 4 t) (iblk m c 6 t) (iblk m c 7 t) (iblk m c 8 t) r cc)).trans ?_
  rw [read_rate m c t cc _ h1, read_cos m c t cc _ h1, read_sin m c t cc _ h1, read_u m c t r cc _ h0 h1, read_v m c t r cc _ h0 h1, read_q m c t r cc _ h0 h1, current_read m c t r cc _ h0 h1]
  rfl

/-- An index of the array is in point `t`'s block iff each coordinate is in the block's range on its axis. -/
theorem mem_blk10 (t : Fin cfg0.N) (i : S4096x4096.Idx) :
    i ∈ ((cfg0.win 10).blk t).view.set ↔ ∀ a : Fin 2, win0_10.index t a * S512x512.size a ≤ (i a).val ∧ (i a).val < win0_10.index t a * S512x512.size a + S512x512.size a := by
  show i ∈ ((View.whole main_v22_1).slice (win0_10.rect t)).set ↔ _
  rw [View.set_slice_whole, Rect.mem_set_unit]
  exact Iff.rfl

/-- Every index `(R, C)` of the array is in the block of the grid point with block indices `(R / 512, C / 512)`. -/
theorem cover10 (i : S4096x4096.Idx) : ∃ t : Fin cfg0.N, (cfg0.win 10).flush t = true ∧ i ∈ ((cfg0.win 10).blk t).view.set := by
  have hi0 : (i 0).val < 4096 := (i 0).isLt
  have hi1 : (i 1).val < 4096 := (i 1).isLt
  obtain ⟨t, ht⟩ := grid_onto ⟨(i 0).val / 512, by omega⟩ ⟨(i 1).val / 512, by omega⟩
  have q0 : win0_9.index t (0 : Fin 2) = (i 0).val / 512 := congrFun ht 0
  have q1 : win0_9.index t (1 : Fin 2) = (i 1).val / 512 := congrFun ht 1
  obtain ⟨e0, e1, e2, e3, e4, e5, e6, e7, e8, e9, e10, e11, e12, e13, e14, e15, e16, e17, e18, e19, e20, e21, e22, e23, e24, e25, e26, e27, e28, e29⟩ := grid_facts t
  refine ⟨t, flush0_10 t, ?_⟩
  rw [mem_blk10]
  intro a
  match a with
  | ⟨0, _⟩ => show win0_10.index t (0 : Fin 2) * 512 ≤ (i 0).val ∧ (i 0).val < win0_10.index t (0 : Fin 2) * 512 + 512; omega
  | ⟨1, _⟩ => show win0_10.index t (1 : Fin 2) * 512 ≤ (i 1).val ∧ (i 1).val < win0_10.index t (1 : Fin 2) * 512 + 512; omega

/-- So after the run the array is the whole-array function. -/
theorem final10 (c : Dev nD) : (dats m 0 c).arrAt 10 cfg0.N = firstNext (V m c main_arg0) (V m c main_arg5) (V m c main_v21) (V m c main_v15) (V m c main_v19) (V m c main_arg2) (V m c main_arg3) (V m c main_arg4) :=
  (dats m 0 c).arrAt_eq_of_cover 10 _ (fun t _ => flushed10_eq m c t) cover10

/-! ## Output window 9: the new spike -/

/-- What grid point `t` writes back to this output is block `t` of the whole-array function: entry `(r, c)` of the
    stored block is the scalar step at the loaded values there, and each loaded value is its array at the global
    index `(512·a₀ + r, 512·a₁ + c)`, which is where the block's entry `(r, c)` sits in the array. -/
theorem flushed9_eq (c : Dev nD) (t : Fin cfg0.N) :
    (dats m 0 c).flushed 9 t = ((cfg0.win 9).blk t).view.read (Elt Ideal) (spikes (V m c main_arg0) (V m c main_arg5) (V m c main_v21) (V m c main_v15) (V m c main_v19) (V m c main_arg1) (V m c main_arg2) (V m c main_arg3) (V m c main_arg4)) := by
  refine (Value.flushed9_A m c t).trans ?_
  refine (congrArg ((cfg0.win 9).cut (grid0.coords t)) (Body.left9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (iblk m c 8 t))).trans ?_
  funext j
  obtain ⟨r, cc, rfl⟩ : ∃ (r cc : Fin 512), j = ix2 r cc := ⟨j 0, j 1, eq_ix2 j⟩
  obtain ⟨e0, e1, e2, e3, e4, e5, e6, e7, e8, e9, e10, e11, e12, e13, e14, e15, e16, e17, e18, e19, e20, e21, e22, e23, e24, e25, e26, e27, e28, e29⟩ := grid_facts t
  have h0 : ((((cfg0.win 9).blk t).view.emb (ix2 r cc)) 0).val = win0_9.index t (0 : Fin 2) * 512 + r.val := by
    show win0_9.index t (0 : Fin 2) * 512 + 1 * r.val = _; omega
  have h1 : ((((cfg0.win 9).blk t).view.emb (ix2 r cc)) 1).val = win0_9.index t (1 : Fin 2) * 512 + cc.val := by
    show win0_9.index t (1 : Fin 2) * 512 + 1 * cc.val = _; omega
  refine ((BodyAt.spike_apply (Body.current (grid0.coords t) (iblk m c 0 t) (iblk m c 1 t)) (iblk m c 2 t) (iblk m c 3 t) (iblk m c 4 t) (iblk m c 5 t) (iblk m c 6 t) (iblk m c 7 t) (iblk m c 8 t) r cc)).trans ?_
  rw [read_rate m c t cc _ h1, read_cos m c t cc _ h1, read_sin m c t cc _ h1, read_u m c t r cc _ h0 h1, read_v m c t r cc _ h0 h1, read_q m c t r cc _ h0 h1, read_z m c t r cc _ h0 h1, current_read m c t r cc _ h0 h1]
  rfl

/-- An index of the array is in point `t`'s block iff each coordinate is in the block's range on its axis. -/
theorem mem_blk9 (t : Fin cfg0.N) (i : S4096x4096.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v22_0).slice (win0_9.rect t)).set ↔ _
  rw [View.set_slice_whole, Rect.mem_set_unit]
  exact Iff.rfl

/-- Every index `(R, C)` of the array is in the block of the grid point with block indices `(R / 512, C / 512)`. -/
theorem cover9 (i : S4096x4096.Idx) : ∃ t : Fin cfg0.N, (cfg0.win 9).flush t = true ∧ i ∈ ((cfg0.win 9).blk t).view.set := by
  have hi0 : (i 0).val < 4096 := (i 0).isLt
  have hi1 : (i 1).val < 4096 := (i 1).isLt
  obtain ⟨t, ht⟩ := grid_onto ⟨(i 0).val / 512, by omega⟩ ⟨(i 1).val / 512, by omega⟩
  have q0 : win0_9.index t (0 : Fin 2) = (i 0).val / 512 := congrFun ht 0
  have q1 : win0_9.index t (1 : Fin 2) = (i 1).val / 512 := congrFun ht 1
  obtain ⟨e0, e1, e2, e3, e4, e5, e6, e7, e8, e9, e10, e11, e12, e13, e14, e15, e16, e17, e18, e19, e20, e21, e22, e23, e24, e25, e26, e27, e28, e29⟩ := grid_facts t
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- So after the run the array is the whole-array function. -/
theorem final9 (c : Dev nD) : (dats m 0 c).arrAt 9 cfg0.N = spikes (V m c main_arg0) (V m c main_arg5) (V m c main_v21) (V m c main_v15) (V m c main_v19) (V m c main_arg1) (V m c main_arg2) (V m c main_arg3) (V m c main_arg4) :=
  (dats m 0 c).arrAt_eq_of_cover 9 _ (fun t _ => flushed9_eq m c t) cover9

/-! ## The run -/

/-- The kernel's run with each result array at its whole-array function, the arguments unchanged. -/
theorem run : θ_run defs (onTc (τ := τ) (main (F := Ideal))) ⟨m, fun _ => 0, ρ⟩ fun r => ∀ c : Dev nD,
      r.2.mem ((c : Thread nD τ).loc main_v22_0) = spikes (V m c main_arg0) (V m c main_arg5) (V m c main_v21) (V m c main_v15) (V m c main_v19) (V m c main_arg1) (V m c main_arg2) (V m c main_arg3) (V m c main_arg4)
      ∧ r.2.mem ((c : Thread nD τ).loc main_v22_1) = firstNext (V m c main_arg0) (V m c main_arg5) (V m c main_v21) (V m c main_v15) (V m c main_v19) (V m c main_arg2) (V m c main_arg3) (V m c main_arg4)
      ∧ r.2.mem ((c : Thread nD τ).loc main_v22_2) = secondNext (V m c main_v21) (V m c main_v15) (V m c main_v19) (V m c main_arg2) (V m c main_arg3) (V m c main_arg4)
      ∧ r.2.mem ((c : Thread nD τ).loc main_v22_3) = traceNext (V m c main_arg1) (V m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2.1.trans (final10 m c),
      (h c).2.2.1.trans (final11 m c), (h c).2.2.2.1.trans (final12 m c), (h c).2.2.2.2⟩)
    (Value.run_blocks m ρ)

end Cert.KernelIdeal.Whole

end
-- ==== Proof.Rows.lean ====
/-
  The three 1×4096 parameter rows the kernel is launched on are the reference's three per-neuron vectors, laid
  out as one row.

  Before the kernel runs, the host computes from `ω` and the offset `b`: `|ω|`, `|b|`, the net decay rate
  `(-1 + sqrt (1 - (dt·|ω|)²)) / dt - |b|`, `cos (|ω|·dt)` and `sin (|ω|·dt)`, and reshapes each of the last three
  from [4096] to [1, 4096].  The reference computes the same three vectors by the same operations on the same
  words, in the same order, so the two terms coincide as they stand; a [4096] vector reshaped to [1, 4096] reads,
  at `(0, C)`, the vector at `C`.
-/
import proofs.«180163_j2499670966836_2_alg».proof.Proof.Blocks
import proofs.«180163_j2499670966836_2_alg».proof.Proof.Gen.KernelIdeal.Frame
import proofs.«180163_j2499670966836_2_alg».proof.Proof.Gen.ReferenceIdeal.Read
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem Idealize.ShloMosaic.ValueIdx Idealize.ShloMosaic.StableHlo

namespace Cert.KernelIdeal.Rows

open Cert.KernelIdeal Cert.KernelIdeal.Gen

variable (m : (ℓ : Loc nD τ sig) → Buf (Elt Ideal) ℓ) (c : Dev nD)

set_option maxHeartbeats 2000000 in
/-- The net decay-rate row is the reference's decay-rate vector as one row, -/
theorem rate_row : (V m c main_v21 : S1x4096.Idx → EReal)
    = shapeCast S1x4096 (Cert.ReferenceIdeal.Read.val_main_v14 (F := Ideal) (m ((c : Thread nD τ).loc main_arg6)) (m ((c : Thread nD τ).loc main_arg7))) shapeCasts_S4096_S1x4096 := by
  dsimp only [Gen.V, Gen.hostOps0]; after_results_simp; rfl

/-- … read at the column of a global index. -/
theorem rate_at (I : S4096x4096.Idx) :
    V m c main_v21 (Blocks.rowEntry I) = Cert.ReferenceIdeal.Read.val_main_v14 (F := Ideal) (m ((c : Thread nD τ).loc main_arg6)) (m ((c : Thread nD τ).loc main_arg7)) (ix1 (⟨(I 1).val, (I 1).isLt⟩ : Fin 4096)) :=
  (congrFun (rate_row m c) (Blocks.rowEntry I)).trans
    (shapeCast_a_1a_apply _ shapeCasts_S4096_S1x4096 (0 : Fin 1) (⟨(I 1).val, (I 1).isLt⟩ : Fin 4096))

/-- the cosine row is the reference's cosine vector as one row, -/
theorem cos_row : (V m c main_v15 : S1x4096.Idx → EReal)
    = shapeCast S1x4096 (Cert.ReferenceIdeal.Read.val_main_v24 (F := Ideal) (m ((c : Thread nD τ).loc main_arg6))) shapeCasts_S4096_S1x4096 := by
  dsimp only [Gen.V, Gen.hostOps0]; after_results; rfl

/-- … read at the column of a global index. -/
theorem cos_at (I : S4096x4096.Idx) :
    V m c main_v15 (Blocks.rowEntry I) = Cert.ReferenceIdeal.Read.val_main_v24 (F := Ideal) (m ((c : Thread nD τ).loc main_arg6)) (ix1 (⟨(I 1).val, (I 1).isLt⟩ : Fin 4096)) :=
  (congrFun (cos_row m c) (Blocks.rowEntry I)).trans
    (shapeCast_a_1a_apply _ shapeCasts_S4096_S1x4096 (0 : Fin 1) (⟨(I 1).val, (I 1).isLt⟩ : Fin 4096))

/-- the sine row is the reference's sine vector as one row, -/
theorem sin_row : (V m c main_v19 : S1x4096.Idx → EReal)
    = shapeCast S1x4096 (Cert.ReferenceIdeal.Read.val_main_v27 (F := Ideal) (m ((c : Thread nD τ).loc main_arg6))) shapeCasts_S4096_S1x4096 := by
  dsimp only [Gen.V, Gen.hostOps0]; after_results; rfl

/-- … read at the column of a global index. -/
theorem sin_at (I : S4096x4096.Idx) :
    V m c main_v19 (Blocks.rowEntry I) = Cert.ReferenceIdeal.Read.val_main_v27 (F := Ideal) (m ((c : Thread nD τ).loc main_arg6)) (ix1 (⟨(I 1).val, (I 1).isLt⟩ : Fin 4096)) :=
  (congrFun (sin_row m c) (Blocks.rowEntry I)).trans
    (shapeCast_a_1a_apply _ shapeCasts_S4096_S1x4096 (0 : Fin 1) (⟨(I 1).val, (I 1).isLt⟩ : Fin 4096))

end Cert.KernelIdeal.Rows

end
-- ==== Proof.RefValue.lean ====
/-
  The reference program's four results read at a global index `I = (R, C)`: each is the scalar step of
  `Cert.Cell` applied to the argument arrays at `I`, the three per-neuron vectors (net decay rate, cosine and
  sine of the angular step — the reference's own stages, kept as they are) at `C`, and the input current
  `∑ₖ x(R, k)·W(C, k)` (the reference multiplies `x` by the transpose of `W`).  Nothing here is more than the
  program's operations read one after the other at an index: the reference already subtracts `q` twice.
-/
import proofs.«180163_j2499670966836_2_alg».proof.Proof.Cell
import proofs.«180163_j2499670966836_2_alg».proof.Proof.Gen.ReferenceIdeal.Read
import Idealize.ShloMosaic.Lib.ValueIdx

noncomputable section

open Idealize.ShloMosaic Idealize.ShloMosaic.ValueIdx

namespace Cert.ReferenceIdeal.RefValue

open Cert.ReferenceIdeal Cert.ReferenceIdeal.Read Cert.Cell

/-- Neuron `C = I₁` of a per-neuron vector, for a global index `I`. -/
abbrev col (I : S4096x4096.Idx) : S4096.Idx := ix1 (⟨(I 1).val, (I 1).isLt⟩ : Fin 4096)

/-- The input current at `I`: row `I₀` of `x` against row `I₁` of `W`. -/
def current (x W : S4096x256.Idx → EReal) (I : S4096x4096.Idx) : EReal :=
  ∑ k : Fin 256, x (ix2 (⟨(I 0).val, (I 0).isLt⟩ : Fin 4096) k) * W (ix2 (⟨(I 1).val, (I 1).isLt⟩ : Fin 4096) k)

/-- A per-neuron vector broadcast to one row and then down the rows is read at the neuron. -/
theorem col_rate (I : S4096x4096.Idx) : idx_main_v15 (idx_main_v16 I) = col I := funext fun a => by match a with | ⟨0, _⟩ => rfl
theorem col_cos1 (I : S4096x4096.Idx) : idx_main_v28 (idx_main_v29 I) = col I := funext fun a => by match a with | ⟨0, _⟩ => rfl
theorem col_sin1 (I : S4096x4096.Idx) : idx_main_v31 (idx_main_v32 I) = col I := funext fun a => by match a with | ⟨0, _⟩ => rfl
theorem col_sin2 (I : S4096x4096.Idx) : idx_main_v39 (idx_main_v40 I) = col I := funext fun a => by match a with | ⟨0, _⟩ => rfl
theorem col_cos2 (I : S4096x4096.Idx) : idx_main_v42 (idx_main_v43 I) = col I := funext fun a => by match a with | ⟨0, _⟩ => rfl

/-- The matrix product `x · Wᵀ` at `I` is the input current. -/
theorem product_eq (x0 : (⟨S4096x256, .f32⟩ : BufTy).Contents (Elt Ideal)) (x5 : (⟨S4096x256, .f32⟩ : BufTy).Contents (Elt Ideal)) (I : S4096x4096.Idx) :
    val_main_v1 (F := Ideal) x0 x5 I = current x0 x5 I := by
  rw [val_main_v1_apply]
  refine Finset.sum_congr rfl fun k _ => ?_
  rw [val_main_v0_apply]
  have el : lidx_main_v1 I k = ix2 (⟨(I 0).val, (I 0).isLt⟩ : Fin 4096) k := funext fun a => by match a with | ⟨0, _⟩ => rfl | ⟨1, _⟩ => rfl
  have er : idx_main_v0 (ridx_main_v1 I k) = ix2 (⟨(I 1).val, (I 1).isLt⟩ : Fin 4096) k := funext fun a => by match a with | ⟨0, _⟩ => rfl | ⟨1, _⟩ => rfl
  rw [el, er]

/-- The new threshold trace at `I`. -/
theorem trace_eq (x1 x4 : (⟨S4096x4096, .f32⟩ : BufTy).Contents (Elt Ideal)) (I : S4096x4096.Idx) :
    val_main_v49 (F := Ideal) x1 x4 I = qNext (x4 I) (x1 I) := by
  rw [val_main_v49_apply, val_main_v48_apply, val_main_v47_apply, val_main_cst_7_apply]
  rfl

/-- The damping factor at `I`. -/
theorem damp_eq (x4 : (⟨S4096x4096, .f32⟩ : BufTy).Contents (Elt Ideal)) (x6 x7 : (⟨S4096, .f32⟩ : BufTy).Contents (Elt Ideal)) (I : S4096x4096.Idx) :
    val_main_v21 (F := Ideal) x4 x6 x7 I = damp (val_main_v14 (F := Ideal) x6 x7 (col I)) (x4 I) := by
  rw [val_main_v21_apply, val_main_v20_apply, val_main_v18_apply, val_main_v17_apply, val_main_v16_apply, val_main_v15_apply, val_main_v19_apply, val_main_cst_3_apply, col_rate]
  rfl

/-- The new second state component at `I`. -/
theorem second_eq (x2 x3 x4 : (⟨S4096x4096, .f32⟩ : BufTy).Contents (Elt Ideal)) (x6 x7 : (⟨S4096, .f32⟩ : BufTy).Contents (Elt Ideal)) (I : S4096x4096.Idx) :
    val_main_v46 (F := Ideal) x2 x3 x4 x6 x7 I
      = vNext (val_main_v14 (F := Ideal) x6 x7 (col I)) (val_main_v24 (F := Ideal) x6 (col I)) (val_main_v27 (F := Ideal) x6 (col I)) (x2 I) (x3 I) (x4 I) := by
  rw [val_main_v46_apply, damp_eq, val_main_v45_apply, val_main_v41_apply, val_main_v40_apply, val_main_v39_apply, val_main_v44_apply,
    val_main_v43_apply, val_main_v42_apply, col_sin2, col_cos2]
  rfl

/-- The new first state component at `I`. -/
theorem first_eq (x0 : (⟨S4096x256, .f32⟩ : BufTy).Contents (Elt Ideal)) (x2 x3 x4 : (⟨S4096x4096, .f32⟩ : BufTy).Contents (Elt Ideal)) (x5 : (⟨S4096x256, .f32⟩ : BufTy).Contents (Elt Ideal)) (x6 x7 : (⟨S4096, .f32⟩ : BufTy).Contents (Elt Ideal)) (I : S4096x4096.Idx) :
    val_main_v38 (F := Ideal) x0 x2 x3 x4 x5 x6 x7 I
      = uNext (val_main_v14 (F := Ideal) x6 x7 (col I)) (val_main_v24 (F := Ideal) x6 (col I)) (val_main_v27 (F := Ideal) x6 (col I)) (x2 I) (x3 I) (x4 I)
          (current x0 x5 I) := by
  rw [val_main_v38_apply, val_main_v35_apply, damp_eq, val_main_v34_apply, val_main_v30_apply, val_main_v29_apply, val_main_v28_apply,
    val_main_v33_apply, val_main_v32_apply, val_main_v31_apply, col_cos1, col_sin1, val_main_v37_apply, product_eq, val_main_v36_apply,
    val_main_cst_6_apply]
  rfl

/-- The new spike at `I`. -/
theorem spike_eq (x0 : (⟨S4096x256, .f32⟩ : BufTy).Contents (Elt Ideal)) (x1 x2 x3 x4 : (⟨S4096x4096, .f32⟩ : BufTy).Contents (Elt Ideal)) (x5 : (⟨S4096x256, .f32⟩ : BufTy).Contents (Elt Ideal)) (x6 x7 : (⟨S4096, .f32⟩ : BufTy).Contents (Elt Ideal)) (I : S4096x4096.Idx) :
    val_main_v55 (F := Ideal) x0 x1 x2 x3 x4 x5 x6 x7 I
      = zNext (val_main_v14 (F := Ideal) x6 x7 (col I)) (val_main_v24 (F := Ideal) x6 (col I)) (val_main_v27 (F := Ideal) x6 (col I)) (x2 I) (x3 I) (x4 I)
          (current x0 x5 I) (x1 I) := by
  rw [val_main_v55_apply, val_main_v54_apply, val_main_v52_apply, val_main_v51_apply, first_eq, trace_eq, val_main_v50_apply,
    val_main_cst_8_apply, val_main_v53_apply, val_main_cst_9_apply]
  rfl

end Cert.ReferenceIdeal.RefValue

end
-- ==== Proof.Agree.lean ====
/-
  The reference's four results, as functions of the SAME argument arrays, are the kernel's four whole-array
  functions.

  Index by index both are the scalar step of `Cert.Cell` at the same entries: the reference reads the three
  per-neuron vectors at neuron `C`, the kernel reads the three 1×4096 rows it was launched on at `(0, C)`, and
  these are the same numbers; the arrays `x, z, u, v, q, W` reach the kernel unchanged by the host operations
  before it; and the two spellings of the input current `∑ₖ x(R, k)·W(C, k)` are one sum.
-/
import proofs.«180163_j2499670966836_2_alg».proof.Proof.Whole
import proofs.«180163_j2499670966836_2_alg».proof.Proof.Rows
import proofs.«180163_j2499670966836_2_alg».proof.Proof.RefValue

noncomputable section

open Idealize.ShloMosaic Idealize.ShloMosaic.TcCoe Idealize.SL.Sem Idealize.ShloMosaic.ValueIdx

namespace Cert.KernelIdeal.Agree

open Cert.KernelIdeal Cert.KernelIdeal.Gen

variable (m : (ℓ : Loc nD τ sig) → Buf (Elt Ideal) ℓ) (c : Dev nD)

/-- The new threshold trace. -/
theorem trace_agree :
    Cert.ReferenceIdeal.Read.val_main_v49 (F := Ideal) (m ((c : Thread nD τ).loc main_arg1)) (m ((c : Thread nD τ).loc main_arg4)) = Whole.traceNext (V m c main_arg1) (V m c main_arg4) := by
  funext I
  refine (Cert.ReferenceIdeal.RefValue.trace_eq _ _ I).trans ?_
  unfold Whole.traceNext
  rw [V_main_arg1 m c, V_main_arg4 m c]

/-- The new second state component. -/
theorem second_agree :
    Cert.ReferenceIdeal.Read.val_main_v46 (F := Ideal) (m ((c : Thread nD τ).loc main_arg2)) (m ((c : Thread nD τ).loc main_arg3)) (m ((c : Thread nD τ).loc main_arg4)) (m ((c : Thread nD τ).loc main_arg6)) (m ((c : Thread nD τ).loc main_arg7)) = Whole.secondNext (V m c main_v21) (V m c main_v15) (V m c main_v19) (V m c main_arg2) (V m c main_arg3) (V m c main_arg4) := by
  funext I
  refine (Cert.ReferenceIdeal.RefValue.second_eq _ _ _ _ _ I).trans ?_
  unfold Whole.secondNext
  rw [Rows.rate_at m c I, Rows.cos_at m c I, Rows.sin_at m c I, V_main_arg2 m c, V_main_arg3 m c, V_main_arg4 m c]

/-- The new first state component. -/
theorem first_agree :
    Cert.ReferenceIdeal.Read.val_main_v38 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = Whole.firstNext (V m c main_arg0) (V m c main_arg5) (V m c main_v21) (V m c main_v15) (V m c main_v19) (V m c main_arg2) (V m c main_arg3) (V m c main_arg4) := by
  funext I
  refine (Cert.ReferenceIdeal.RefValue.first_eq _ _ _ _ _ _ _ I).trans ?_
  unfold Whole.firstNext
  rw [Rows.rate_at m c I, Rows.cos_at m c I, Rows.sin_at m c I, V_main_arg0 m c, V_main_arg2 m c, V_main_arg3 m c, V_main_arg4 m c,
    V_main_arg5 m c]
  rfl

/-- The new spikes. -/
theorem spikes_agree :
    Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = Whole.spikes (V m c main_arg0) (V m c main_arg5) (V m c main_v21) (V m c main_v15) (V m c main_v19) (V m c main_arg1) (V m c main_arg2) (V m c main_arg3) (V m c main_arg4) := by
  funext I
  refine (Cert.ReferenceIdeal.RefValue.spike_eq _ _ _ _ _ _ _ _ I).trans ?_
  unfold Whole.spikes
  rw [Rows.rate_at m c I, Rows.cos_at m c I, Rows.sin_at m c I, V_main_arg0 m c, V_main_arg1 m c, V_main_arg2 m c, V_main_arg3 m c,
    V_main_arg4 m c, V_main_arg5 m c]
  rfl

end Cert.KernelIdeal.Agree

end
-- ==== Proof.lean ====
/-
  One step of a population of damped, rotating oscillator cells with adaptive thresholds: the tiled kernel against
  the plain array program, on the extended reals.

  Inputs: `x` [4096, 256], previous spikes `z`, state `u, v`, threshold trace `q` (each [4096, 4096]), weights `W`
  [4096, 256], and per neuron the angular frequency `ω` and an offset `b` [4096].  With `dt` the step, per neuron
  `C`:  p(C) = (-1 + sqrt (1 - (dt·|ω C|)²)) / dt - |b C|,  cos(C) = cos (|ω C|·dt),  sin(C) = sin (|ω C|·dt); and
  at every index `I = (R, C)`, with the input current  d(I) = ∑ₖ x(R, k)·W(C, k):

      damp = exp ((p C - q I - q I)·dt)
      u'   = damp·(u I·cos C - v I·sin C) + d I·dt
      v'   = damp·(u I·sin C + v I·cos C)
      q'   = 0.9·q I + z I
      z'   = 1 if u' - 1 - q' > 0, else 0.

  The reference computes exactly this, array operation by array operation.  The kernel computes `p, cos, sin` on
  the host as three 1×4096 rows and then covers the [4096, 4096] results with an 8×8 grid of 512×512 blocks; at a
  grid point it multiplies 512 rows of `x` by the transpose of 512 rows of `W` (rounding both to a shorter float
  format first, which changes nothing on the extended reals), and spells the exponent `(p - 2·q)·dt` and the spike
  as a comparison bit widened to 32 bits and converted as a signed integer.

  Why the two agree (claim `algebraic`): a block's entry is the scalar step at the global index
  (Proof/BodyAt.lean, Proof/Blocks.lean); the 64 blocks cover each result (Proof/Whole.lean); `p - 2·q = p - q - q` for ALL
  extended reals, so no finiteness of the inputs is used (Proof/Cell.lean); the widened bit read signed is the bit
  (Proof/Cell.lean); the host-computed rows are the reference's vectors (Proof/Rows.lean); the reference read at an index
  is the same scalar step (Proof/RefValue.lean); Proof/Agree.lean puts the two together.  The three frame claims are the
  generated frame runs (the reference's from its generated run).  The idealization rewrote no operation of the
  kernel, so `preserves` asks nothing.
-/
import proofs.«180163_j2499670966836_2_alg».proof.Defs
import proofs.«180163_j2499670966836_2_alg».proof.Proof.Gen.Kernel
import proofs.«180163_j2499670966836_2_alg».proof.Proof.Gen.Kernel.Skeleton
import proofs.«180163_j2499670966836_2_alg».proof.Proof.Gen.Kernel.Launch
import proofs.«180163_j2499670966836_2_alg».proof.Proof.Gen.Kernel.Points
import proofs.«180163_j2499670966836_2_alg».proof.Proof.Gen.Kernel.Frame
import proofs.«180163_j2499670966836_2_alg».proof.Proof.Gen.KernelIdeal
import proofs.«180163_j2499670966836_2_alg».proof.Proof.Gen.KernelIdeal.Skeleton
import proofs.«180163_j2499670966836_2_alg».proof.Proof.Gen.KernelIdeal.Launch
import proofs.«180163_j2499670966836_2_alg».proof.Proof.Gen.KernelIdeal.Points
import proofs.«180163_j2499670966836_2_alg».proof.Proof.Gen.KernelIdeal.Frame
import proofs.«180163_j2499670966836_2_alg».proof.Proof.Gen.ReferenceIdeal
import proofs.«180163_j2499670966836_2_alg».proof.Proof.Gen.Pre_finite_inputs
import proofs.«180163_j2499670966836_2_alg».proof.Proof.Gen.KernelIdeal.Value
import proofs.«180163_j2499670966836_2_alg».proof.Proof.Gen.ReferenceIdeal.Run
import proofs.«180163_j2499670966836_2_alg».proof.Proof.Gen.ReferenceIdeal.Read
import proofs.«180163_j2499670966836_2_alg».proof.Proof.Agree
import Idealize.ShloMosaic.Adequacy
import Idealize.ShloMosaic.Init

noncomputable section

namespace Cert.Proof

open Idealize.ShloMosaic Idealize.SL.Sem

/-- The kernel as compiled terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the four results forgotten. -/
theorem frame_reference_ideal : Cert.frame_ReferenceIdeal := fun m ρ _ =>
  (θ_run Cert.ReferenceIdeal.defs _ _).mono (fun _ h c => (h c).2.2.2.2) (Cert.ReferenceIdeal.Value.run (F := Ideal) m ρ)

/-- The idealized kernel is the kernel's own text read on the extended reals: nothing was rewritten. -/
theorem preserves : Cert.preserves_Kernel_KernelIdeal := trivial

/-- From memories agreeing on the eight arguments both programs end with the same four arrays: the kernel's run ends
    at the whole-array functions of `Cert.KernelIdeal.Whole`, the reference's run at its own stages, and those stages
    of the same arguments are these functions (`Cert.KernelIdeal.Agree`). -/
theorem algebraic : Cert.algebraic_KernelIdeal_ReferenceIdeal := by
  intro m ρ m' ρ' _ hagree
  refine ⟨fun c => Cert.KernelIdeal.Whole.spikes (Cert.KernelIdeal.Gen.V m c Cert.KernelIdeal.main_arg0) (Cert.KernelIdeal.Gen.V m c Cert.KernelIdeal.main_arg5) (Cert.KernelIdeal.Gen.V m c Cert.KernelIdeal.main_v21) (Cert.KernelIdeal.Gen.V m c Cert.KernelIdeal.main_v15) (Cert.KernelIdeal.Gen.V m c Cert.KernelIdeal.main_v19) (Cert.KernelIdeal.Gen.V m c Cert.KernelIdeal.main_arg1) (Cert.KernelIdeal.Gen.V m c Cert.KernelIdeal.main_arg2) (Cert.KernelIdeal.Gen.V m c Cert.KernelIdeal.main_arg3) (Cert.KernelIdeal.Gen.V m c Cert.KernelIdeal.main_arg4),
    fun c => Cert.KernelIdeal.Whole.firstNext (Cert.KernelIdeal.Gen.V m c Cert.KernelIdeal.main_arg0) (Cert.KernelIdeal.Gen.V m c Cert.KernelIdeal.main_arg5) (Cert.KernelIdeal.Gen.V m c Cert.KernelIdeal.main_v21) (Cert.KernelIdeal.Gen.V m c Cert.KernelIdeal.main_v15) (Cert.KernelIdeal.Gen.V m c Cert.KernelIdeal.main_v19) (Cert.KernelIdeal.Gen.V m c Cert.KernelIdeal.main_arg2) (Cert.KernelIdeal.Gen.V m c Cert.KernelIdeal.main_arg3) (Cert.KernelIdeal.Gen.V m c Cert.KernelIdeal.main_arg4),
    fun c => Cert.KernelIdeal.Whole.secondNext (Cert.KernelIdeal.Gen.V m c Cert.KernelIdeal.main_v21) (Cert.KernelIdeal.Gen.V m c Cert.KernelIdeal.main_v15) (Cert.KernelIdeal.Gen.V m c Cert.KernelIdeal.main_v19) (Cert.KernelIdeal.Gen.V m c Cert.KernelIdeal.main_arg2) (Cert.KernelIdeal.Gen.V m c Cert.KernelIdeal.main_arg3) (Cert.KernelIdeal.Gen.V m c Cert.KernelIdeal.main_arg4),
    fun c => Cert.KernelIdeal.Whole.traceNext (Cert.KernelIdeal.Gen.V m c Cert.KernelIdeal.main_arg1) (Cert.KernelIdeal.Gen.V m c Cert.KernelIdeal.main_arg4),
    Cert.KernelIdeal.Whole.run m ρ, ?_⟩
  refine (θ_run Cert.ReferenceIdeal.defs _ _).mono (fun _ h c => ?_) (Cert.ReferenceIdeal.Value.run (F := Ideal) m' ρ')
  obtain ⟨h0, h1, h2, h3, hrest⟩ := h c
  obtain ⟨g0, g1, g2, g3, g4, g5, g6, g7⟩ := hagree c
  refine ⟨h0.trans ?_, h1.trans ?_, h2.trans ?_, h3.trans ?_, hrest⟩
  · rw [Cert.ReferenceIdeal.Read.val_main_v55_eq, g0, g1, g2, g3, g4, g5, g6, g7]
    exact Cert.KernelIdeal.Agree.spikes_agree m c
  · rw [Cert.ReferenceIdeal.Read.val_main_v38_eq, g0, g2, g3, g4, g5, g6, g7]
    exact Cert.KernelIdeal.Agree.first_agree m c
  · rw [Cert.ReferenceIdeal.Read.val_main_v46_eq, g2, g3, g4, g6, g7]
    exact Cert.KernelIdeal.Agree.second_agree m c
  · rw [Cert.ReferenceIdeal.Read.val_main_v49_eq, g1, g4]
    exact Cert.KernelIdeal.Agree.trace_agree m c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
